-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000 : Shape := ⟨1, ![3200000]⟩
abbrev S128x64 : Shape := ⟨2, ![128, 64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  main_v18

def fn {F : FTy → Type} [FloatOps F] (main_arg0 : FVec F S100000x128 .f32) (main_arg1 : IVec S3200000 32) (main_arg2 : IVec S3200000 32) (main_arg3 : FVec F S128x64 .f32) (main_arg4 : FVec F S64x64 .f32) (main_arg5 : FVec F S64x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_v13 main_v16
-- ==== Kernel.lean ====
abbrev S100000x128 : Shape := ⟨2, ![100000, 128]⟩
abbrev S3200000 : Shape := ⟨1, ![3200000]⟩
abbrev S128x64 : Shape := ⟨2, ![128, 64]⟩
abbrev S64x64 : Shape := ⟨2, ![64, 64]⟩
abbrev S100000x64 : Shape := ⟨2, ![100000, 64]⟩
abbrev S5000x128 : Shape := ⟨2, ![5000, 128]⟩
abbrev S5000x64 : Shape := ⟨2, ![5000, 64]⟩
abbrev S_ : Shape := ⟨0, ![]⟩
abbrev S3200000x1 : Shape := ⟨2, ![3200000, 1]⟩
abbrev S3200000x64 : Shape := ⟨2, ![3200000, 64]⟩

abbrev nBuf : Space → Nat
  | .hbm => 23
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S128x64, .f32⟩
  | .hbm, ⟨4, _⟩ => ⟨S64x64, .f32⟩
  | .hbm, ⟨5, _⟩ => ⟨S64x64, .f32⟩
  | .hbm, ⟨6, _⟩ => ⟨S100000x64, .f32⟩
  | .hbm, ⟨7, _⟩ => ⟨S100000x64, .bf16⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S3200000x64, .bf16⟩
  | .hbm, ⟨17, _⟩ => ⟨S3200000x64, .f32⟩
  | .hbm, ⟨18, _⟩ => ⟨S_, .f32⟩
  | .hbm, ⟨19, _⟩ => ⟨S100000x64, .f32⟩
  | .hbm, ⟨20, _⟩ => ⟨S3200000x1, .i32⟩
  | .hbm, ⟨21, _⟩ => ⟨S100000x64, .f32⟩
  | .hbm, ⟨22, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .bf16⟩
  | .local _ .vmem, ⟨6, _⟩ => ⟨S5000x64, .bf16⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S64x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x64 : S_.BroadcastsInDim S100000x64 (![] : Fin 0 → Fin S100000x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  dot_S5000x128_S128x64_S5000x64_1_0_0_1_n_n_wf : DotDims.WF S5000x128 S128x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .bf16 = 32 ∨ (Rect.block (s := S100000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S5000x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S3200000 : Shape := ⟨1, ![3200000]⟩
abbrev S128x64 : Shape := ⟨2, ![128, 64]⟩
abbrev S64x64 : Shape := ⟨2, ![64, 64]⟩
abbrev S100000x64 : Shape := ⟨2, ![100000, 64]⟩
abbrev S_ : Shape := ⟨0, ![]⟩
abbrev S3200000x1 : Shape := ⟨2, ![3200000, 1]⟩
abbrev S3200000x64 : Shape := ⟨2, ![3200000, 64]⟩

abbrev nBuf : Space → Nat
  | .hbm => 49
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S128x64, .f32⟩
  | .hbm, ⟨4, _⟩ => ⟨S64x64, .f32⟩
  | .hbm, ⟨5, _⟩ => ⟨S64x64, .f32⟩
  | .hbm, ⟨6, _⟩ => ⟨S100000x64, .f32⟩
  | .hbm, ⟨7, _⟩ => ⟨S_, .f32⟩
  | .hbm, ⟨8, _⟩ => ⟨S100000x64, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x64, .f32⟩
  | .hbm, ⟨18, _⟩ => ⟨S_, .f32⟩
  | .hbm, ⟨19, _⟩ => ⟨S100000x64, .f32⟩
  | .hbm, ⟨20, _⟩ => ⟨S3200000x1, .i32⟩
  | .hbm, ⟨21, _⟩ => ⟨S100000x64, .f32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .f32⟩
  | .hbm, ⟨26, _⟩ => ⟨S100000x64, .f32⟩
  | .hbm, ⟨27, _⟩ => ⟨S100000x64, .f32⟩
  | .hbm, ⟨28, _⟩ => ⟨S100000x64, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x64, .f32⟩
  | .hbm, ⟨38, _⟩ => ⟨S_, .f32⟩
  | .hbm, ⟨39, _⟩ => ⟨S100000x64, .f32⟩
  | .hbm, ⟨40, _⟩ => ⟨S3200000x1, .i32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_cst : Ref sig .tc := ⟨.hbm, 23, rfl⟩
abbrev main_call0_v0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]

class Facts₀ : Prop where
  bcast_S_S100000x64 : S_.BroadcastsInDim S100000x64 (![] : Fin 0 → Fin S100000x64.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x64_S100000x64_1_0_0_1_n_n_wf : DotDims.WF S100000x64 S64x64 S100000x64 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The run of the two-region program with its RESULT read.

  The program is a first tiled region (the linear projection and its tanh), a line of host operations (the
  neighbour sum: a gather of rows and a scatter-add), and a second tiled region (the two-layer map and the final
  tanh). Every weakly fair execution ends, nothing faulting, with every unscoped buffer at the contents of the last
  boundary of that chain of segments: the contents the second region leaves. Read at the result buffer this is
  what the second region's write-backs fold to; read at an argument it is the launch contents.
-/
import proofs.«124382_j1666447311066_2_alg».proof.Proof.Gen.KernelIdeal.Frame

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the array of the second region's output window. -/
theorem result_is_window4 : Pipeline.arrRef spec1 4 = main_v12 := rfl

/-- The contents of the last boundary at the result buffer: what the second region's write-backs fold to. -/
theorem last_at_result (c : Dev nD) :
    W3 m ρ c (Proc.devRef .tc main_v12) = (dat1 (V2 m ρ) c).arrAt 4 cfg1.N :=
  W3_arr m ρ c 4

set_option backward.isDefEq.respectTransparency.types false in
/-- Every weakly fair execution of the program terminates, nothing faulting; the result buffer then holds the last
    boundary's contents at it, and every argument its launch contents. -/
theorem run_result : θ_run defs (onTc (τ := τ) (main (F := F))) ⟨m, fun _ => 0, ρ⟩ (fun r => ∀ c : Dev nD,
      r.2.mem ((c.tc : Thread nD τ).loc main_v12) = W3 m ρ c (Proc.devRef .tc main_v12)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v12 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.Val

end
-- ==== Proof.Spec.lean ====
/-
  The mathematics both programs compute, index by index, over the extended reals.

  With X the [100000, 128] node features, W the [128, 64] projection, W1 and W2 the two [64, 64] layer matrices,
  and the edge lists src, dst:

    base        = X · W                                            (`proj`)
    u           = tanh base                                        (`act`)
    m           = for each node, the sum of u over its incoming edges: a gather of rows of u at the (wrapped)
                  source indices followed by a scatter-add onto the destination rows of a zero array (`neigh`)
    result      = tanh (base + relu (m · W1) · W2)                 (`layer`)

  The neighbour sum of the zero array is the zero array, and the layer of a zero neighbour sum adds nothing to
  `base`: so one round of message passing started from zero is `tanh base` (`layer_zero`). This is the law that
  joins the two programs: one runs two rounds from zero, the other starts the second round from `tanh base`.
  Nothing here needs finiteness: a zero factor annihilates every extended real.
-/
import Idealize.ShloMosaic.Lib.ValueIdx
import Idealize.ShloMosaic.PureOps.Ideal

noncomputable section

namespace Cert.Spec

open Idealize.ShloMosaic Idealize.ShloMosaic.ValueIdx

/-- Entry (r, c) of the product of an [M, K] array by a [K, N] array: the sum over k of X[r, k] · W[k, c]. -/
def proj {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (i 0) k) * W (ix2 k (i 1))

/-- tanh, entry by entry. -/
def act {S : Shape} (b : S.Idx → EReal) : S.Idx → EReal := fun i => Ideal.tanh (b i)

/-- The two-layer map with a relu between, added to `base`, under tanh: entry (r, c) is
    tanh (base[r, c] + Σ_k max (Σ_l m[r, l] · W1[l, k]) 0 · W2[k, c]). -/
def layer {M D : ℕ} (mm base : (⟨2, ![M, D]⟩ : Shape).Idx → EReal) (W1 W2 : (⟨2, ![D, D]⟩ : Shape).Idx → EReal) :
    (⟨2, ![M, D]⟩ : Shape).Idx → EReal :=
  fun i => Ideal.tanh (base i + ∑ k : Fin D, max (∑ l : Fin D, mm (ix2 (i 0) l) * W1 (ix2 l k)) 0 * W2 (ix2 k (i 1)))

/-- The neighbour sum: rows of `u` gathered at the start indices `srcw`, scatter-added at the indices `dstw`
    onto a zero array (an update whose index falls outside the array contributes nothing). -/
def neigh {A I B : Shape} {w : ℕ} (gd : GatherDims A I B) (sd : ScatterDims A I B) (u : A.Idx → EReal)
    (srcw dstw : IVec I w) : A.Idx → EReal :=
  Ideal.hostScatterAdd sd (fun _ => 0) dstw (Host.gather gd u srcw)

/-- The neighbour sum of the zero array is the zero array: every gathered entry is zero, and a zero entry plus a
    sum of zeros is zero. -/
theorem neigh_zero {A I B : Shape} {w : ℕ} (gd : GatherDims A I B) (sd : ScatterDims A I B) (srcw dstw : IVec I w) :
    neigh gd sd (fun _ => 0) srcw dstw = fun _ => 0 := by
  funext i
  show (0 : EReal) + ∑ j ∈ Finset.univ.filter (fun j => sd.resultIdx? j dstw = some i), (0 : EReal) = 0
  rw [Finset.sum_const_zero, add_zero]

/-- A round of message passing whose neighbour sum is zero adds nothing: its result is `tanh base`. -/
theorem layer_zero {M D : ℕ} (base : (⟨2, ![M, D]⟩ : Shape).Idx → EReal) (W1 W2 : (⟨2, ![D, D]⟩ : Shape).Idx → EReal) :
    layer (fun _ => 0) base W1 W2 = act base := by
  funext i
  unfold layer act
  have h1 : ∀ k : Fin D, (∑ l : Fin D, (0 : EReal) * W1 (ix2 l k)) = 0 := fun k =>
    Finset.sum_eq_zero fun l _ => zero_mul _
  simp only [h1, max_self, zero_mul, Finset.sum_const_zero, add_zero]

end Cert.Spec

end
-- ==== Proof.LibDense.lean ====
/-
  Two general facts about a plain matrix product at the exact instance.

  A product of an [M, K] by a [K, N] operand that contracts the first operand's columns against the
  second's rows (no batch axis) has, at the output position (r, c), the operand positions (r, k) and
  (k, c) as k runs over the K contracted positions. So its sum over the contraction's index type is the
  sum over `Fin K` of the first operand at (r, k) times the second at (k, c) — the textbook entry of the
  product. Stated for any dimension record with those four index facts, so that a kernel's matrix unit
  and a host's dot product read the same way.
-/
import Idealize.ShloMosaic.Lib.ValueIdx
import Idealize.ShloMosaic.PureOps.Ideal.Laws

noncomputable section

namespace Cert.LibDense

open Idealize.ShloMosaic Idealize.ShloMosaic.ValueIdx

/-- A row of `K` extended reals against column `j` of a [K, N] matrix. -/
def dense {K N : ℕ} (x : Fin K → EReal) (W : (⟨2, ![K, N]⟩ : Shape).Idx → EReal) (j : Fin N) : EReal :=
  ∑ k : Fin K, x k * W (ix2 k j)

/-- The sum over a one-axis contraction of extent `K`, re-indexed by `Fin K`, when the operand positions are
    (row, k) and (k, column). -/
theorem sum_contr_plain {M K N : ℕ} (d : DotDims (⟨2, ![M, K]⟩ : Shape) (⟨2, ![K, N]⟩ : Shape) (⟨2, ![M, N]⟩ : Shape))
    (hr : d.contr.rank = 1) (hs : d.contr.size ⟨0, by omega⟩ = K)
    (j : (⟨2, ![M, N]⟩ : Shape).Idx)
    (hl0 : ∀ q, (d.lhsIdx j q 0).val = (j 0).val) (hl1 : ∀ q, (d.lhsIdx j q 1).val = (q ⟨0, by omega⟩).val)
    (hr0 : ∀ q, (d.rhsIdx j q 0).val = (q ⟨0, by omega⟩).val) (hr1 : ∀ q, (d.rhsIdx j q 1).val = (j 1).val)
    (l : (⟨2, ![M, K]⟩ : Shape).Idx → EReal) (r : (⟨2, ![K, N]⟩ : Shape).Idx → EReal) :
    ∑ q : d.contr.Idx, l (d.lhsIdx j q) * r (d.rhsIdx j q) = dense (fun k => l (ix2 (j 0) k)) r (j 1) := by
  unfold dense
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _
    | ⟨1, _⟩ => exact (hl1 _).trans hk)
  have er : d.rhsIdx j ((contrEquiv1 d K hr hs).symm k) = ix2 k (j 1) := funext fun a => Fin.ext (by
    match a with
    | ⟨0, _⟩ => exact (hr0 _).trans hk
    | ⟨1, _⟩ => exact hr1 _)
  rw [el, er]
  rfl

/-- The matrix unit's product into a zero accumulator, read at (r, c): the textbook entry. -/
theorem matmul_zero_plain {M K N : ℕ} {φ₁ φ₂ : FTy}
    (d : DotDims (⟨2, ![M, K]⟩ : Shape) (⟨2, ![K, N]⟩ : Shape) (⟨2, ![M, N]⟩ : Shape)) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (l : FVec Ideal (⟨2, ![M, K]⟩ : Shape) φ₁) (r : FVec Ideal (⟨2, ![K, N]⟩ : Shape) φ₂) (a : Fin M) (b : Fin N) :
    FloatOps.matmul d prec l r (constant (⟨2, ![M, N]⟩ : Shape) .f32 0x00000000#32) (ix2 a b)
      = dense (fun k => l (ix2 a k)) r b :=
  (Ideal.matmul_constant_zero_apply d prec l r (ix2 a b)).trans
    (sum_contr_plain d hr hs (ix2 a b) (hl0 _) (hl1 _) (hr0 _) (hr1 _) l r)

end Cert.LibDense

end
-- ==== Proof.Region0.lean ====
/-
  The first region: the linear projection, block by block, and its tanh.

  The grid has 20 points; point t works on rows 5000·t … 5000·t + 4999. It loads that block of the features
  X (5000 × 128) and the whole projection matrix W (128 × 64), forms their product on the matrix unit into a zero
  accumulator, writes the product to block t of the first output and its tanh to block t of the second. A change
  of float format is the identity on the extended reals, so entry (a, b) of the block's product is
  Σ_k X[5000·t + a, k] · W[k, b]: the block is a restriction of the whole product X · W, and the 20 blocks tile
  the 100000 rows. So after the region the first output array is X · W and the second is tanh (X · W).
-/
import proofs.«124382_j1666447311066_2_alg».proof.Proof.Gen.KernelIdeal.Frame
import proofs.«124382_j1666447311066_2_alg».proof.Proof.Spec
import proofs.«124382_j1666447311066_2_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

/-! ## The matrix unit's product of a block, at an entry -/

local notation "dProj" => dot_S5000x128_S128x64_S5000x64_1_0_0_1_n_n

theorem proj_lhs0 (i : S5000x64.Idx) (q : (dProj).contr.Idx) : ((dProj).lhsIdx i q 0).val = (i 0).val := by
  unfold DotDims.lhsIdx
  rw [dif_neg (show ¬(0 : Fin S5000x128.rank) ∈ (dProj).lhsBatch by decide),
    dif_pos (show (0 : Fin S5000x128.rank) ∈ (dProj).lhsNonContracting by decide)]
  rfl
theorem proj_lhs1 (i : S5000x64.Idx) (q : (dProj).contr.Idx) : ((dProj).lhsIdx i q 1).val = (q ⟨0, by decide⟩).val :=
  (dProj).lhsIdx_val_of_single rfl i q
theorem proj_rhs0 (i : S5000x64.Idx) (q : (dProj).contr.Idx) : ((dProj).rhsIdx i q 0).val = (q ⟨0, by decide⟩).val :=
  (dProj).rhsIdx_val_of_single rfl i q
theorem proj_rhs1 (i : S5000x64.Idx) (q : (dProj).contr.Idx) : ((dProj).rhsIdx i q 1).val = (i 1).val := by
  unfold DotDims.rhsIdx
  rw [dif_neg (show ¬(1 : Fin S128x64.rank) ∈ (dProj).rhsBatch by decide),
    dif_pos (show (1 : Fin S128x64.rank) ∈ (dProj).rhsNonContracting by decide)]
  rfl

/-- Entry (a, b) of the block's product: the sum over k of the feature block at (a, k) times W at (k, b). -/
theorem block_product_entry (x0 : Vec Ideal S5000x128 .f32) (x1 : Vec Ideal S128x64 .f32) (a : Fin 5000) (b : Fin 64) :
    k0_pay1 (F := Ideal) x0 x1 (ix2 a b) = ∑ k : Fin 128, x0 (ix2 a k) * x1 (ix2 k b) :=
  Cert.LibDense.matmul_zero_plain (dProj) none rfl rfl proj_lhs0 proj_lhs1 proj_rhs0 proj_rhs1
    (truncf .bf16 x0 bitsLt_bf16_f32) (truncf .bf16 x1 bitsLt_bf16_f32) a b

/-- The second store's entry: the tanh of the product's. -/
theorem block_tanh_entry (x0 : Vec Ideal S5000x128 .f32) (x1 : Vec Ideal S128x64 .f32) (j : S5000x64.Idx) :
    k0_pay2 (F := Ideal) x0 x1 j = Ideal.tanh (k0_pay1 (F := Ideal) x0 x1 j) := rfl

/-! ## From the blocks to the arrays -/

variable (V : (c : Dev nD) → (b : Ref sig .tc) → Buf (Elt Ideal) ((c : Thread nD τ).loc b))

theorem zero_offsets : (![0, 0] : Fin 2 → Nat) = fun _ => 0 := funext fun a => by fin_cases a <;> rfl

/-- The four index maps over the grid: the feature window and both output windows sit at block row t's own row of
    blocks, in block column 0; the weight window always at block (0, 0). -/
theorem index_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_3.index t (0 : Fin 2) = win0_2.index t (0 : Fin 2)
    ∧ win0_3.index t (1 : Fin 2) = 0 :=
  (by decide +kernel : ∀ t : Fin grid0.N, _)

/-- Every one of the 20 block rows is some point's. -/
theorem index_onto0 : ∀ q : Fin 20, ∃ t : Fin cfg0.N, win0_2.index t (0 : Fin 2) = q.val :=
  (by decide +kernel : ∀ q : Fin 20, ∃ t : Fin grid0.N, win0_2.index t (0 : Fin 2) = q.val)

/-- The feature block at (a, k) is the feature array at the row the output block's (a, b) sits in, column k. -/
theorem feature_block_at (c : Dev nD) (t : Fin cfg0.N) (a : Fin 5000) (b : Fin 64) (k : Fin 128) :
    iblk0 V c 0 t (ix2 a k) = V c main_arg0 (ix2 ((((cfg0.win 2).blk t).view.emb (ix2 a b)) 0) k) := by
  obtain ⟨e0, e1, e2, e3, e4, e5, e6⟩ := index_facts0 t
  show V c main_arg0 (((cfg0.win 0).blk t).view.emb (ix2 a k)) = _
  refine congrArg (V c main_arg0) (funext fun d => Fin.ext ?_)
  match d with
  | ⟨0, _⟩ => show win0_0.index t (0 : Fin 2) * 5000 + 1 * a.val = win0_2.index t (0 : Fin 2) * 5000 + 1 * a.val; omega
  | ⟨1, _⟩ => show win0_0.index t (1 : Fin 2) * 128 + 1 * k.val = k.val; omega

/-- The weight block is the weight array. -/
theorem weight_block_at (c : Dev nD) (t : Fin cfg0.N) (a : Fin 5000) (b : Fin 64) (k : Fin 128) :
    iblk0 V c 1 t (ix2 k b) = V c main_arg3 (ix2 k ((((cfg0.win 2).blk t).view.emb (ix2 a b)) 1)) := by
  obtain ⟨e0, e1, e2, e3, e4, e5, e6⟩ := index_facts0 t
  show V c main_arg3 (((cfg0.win 1).blk t).view.emb (ix2 k b)) = _
  refine congrArg (V c main_arg3) (funext fun d => Fin.ext ?_)
  match d with
  | ⟨0, _⟩ => show win0_1.index t (0 : Fin 2) * 128 + 1 * k.val = k.val; omega
  | ⟨1, _⟩ => show win0_1.index t (1 : Fin 2) * 64 + 1 * b.val = win0_2.index t (1 : Fin 2) * 64 + 1 * b.val; omega

/-- What point t writes back to the first output is block t of X · W. -/
theorem flushed_base (c : Dev nD) (t : Fin cfg0.N) :
    (dat0 V c).flushed 2 t = ((cfg0.win 2).blk t).view.read (Elt Ideal) (proj (V c main_arg0) (V c main_arg3)) := by
  show (cfg0.win 2).cut (grid0.coords t) ((dat0 V c).after 2 t) = _
  rw [after0_2]
  unfold out0_2
  rw [View.canon_unit_zero zero_offsets]
  simp only [View.ld_unit_zero (S := S5000x128) zero_offsets, View.ld_unit_zero (S := S128x64) zero_offsets]
  funext j
  obtain ⟨a, b, rfl⟩ : ∃ (a : Fin 5000) (b : Fin 64), j = ix2 a b := ⟨j 0, j 1, eq_ix2 j⟩
  refine (block_product_entry _ _ a b).trans ?_
  show _ = proj (V c main_arg0) (V c main_arg3) (((cfg0.win 2).blk t).view.emb (ix2 a b))
  unfold proj
  exact Finset.sum_congr rfl fun k _ => by rw [feature_block_at V c t a b k, weight_block_at V c t a b k]

/-- What point t writes back to the second output is block t of tanh (X · W). -/
theorem flushed_act (c : Dev nD) (t : Fin cfg0.N) :
    (dat0 V c).flushed 3 t = ((cfg0.win 3).blk t).view.read (Elt Ideal) (act (proj (V c main_arg0) (V c main_arg3))) := by
  obtain ⟨e0, e1, e2, e3, e4, e5, e6⟩ := index_facts0 t
  show (cfg0.win 3).cut (grid0.coords t) ((dat0 V c).after 3 t) = _
  rw [after0_3]
  unfold out0_3
  rw [View.canon_unit_zero zero_offsets]
  simp only [View.ld_unit_zero (S := S5000x128) zero_offsets, View.ld_unit_zero (S := S128x64) zero_offsets]
  funext j
  obtain ⟨a, b, rfl⟩ : ∃ (a : Fin 5000) (b : Fin 64), j = ix2 a b := ⟨j 0, j 1, eq_ix2 j⟩
  refine (block_tanh_entry _ _ (ix2 a b)).trans ?_
  show _ = Ideal.tanh (proj (V c main_arg0) (V c main_arg3) (((cfg0.win 3).blk t).view.emb (ix2 a b)))
  refine congrArg Ideal.tanh ((block_product_entry _ _ a b).trans ?_)
  have hemb : ((cfg0.win 3).blk t).view.emb (ix2 a b) = ((cfg0.win 2).blk t).view.emb (ix2 a b) :=
    funext fun d => Fin.ext (by
      match d with
      | ⟨0, _⟩ => show win0_3.index t (0 : Fin 2) * 5000 + 1 * a.val = win0_2.index t (0 : Fin 2) * 5000 + 1 * a.val; omega
      | ⟨1, _⟩ => show win0_3.index t (1 : Fin 2) * 64 + 1 * b.val = win0_2.index t (1 : Fin 2) * 64 + 1 * b.val; omega)
  rw [hemb]
  unfold proj
  exact Finset.sum_congr rfl fun k _ => by rw [feature_block_at V c t a b k, weight_block_at V c t a b k]

/-- An index of an output array is in point t's block iff each coordinate is in the block's range on its axis. -/
theorem mem_block_base (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0_0).slice (win0_2.rect t)).set ↔ _
  rw [View.set_slice_whole, Rect.mem_set_unit]
  exact Iff.rfl
theorem mem_block_act (t : Fin cfg0.N) (i : S100000x64.Idx) :
    i ∈ ((cfg0.win 3).blk t).view.set ↔ ∀ a : Fin 2, win0_3.index t a * S5000x64.size a ≤ (i a).val
      ∧ (i a).val < win0_3.index t a * S5000x64.size a + S5000x64.size a := by
  show i ∈ ((View.whole main_v0_1).slice (win0_3.rect t)).set ↔ _
  rw [View.set_slice_whole, Rect.mem_set_unit]
  exact Iff.rfl

/-- Row r of an output array lies in the block of the point at block row r / 5000: the 20 blocks tile the rows. -/
theorem cover_base (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := index_onto0 ⟨(i 0).val / 5000, by omega⟩
  have ht' : win0_2.index t (0 : Fin 2) = (i 0).val / 5000 := ht
  obtain ⟨e0, e1, e2, e3, e4, e5, e6⟩ := index_facts0 t
  refine ⟨t, flush0_2 t, ?_⟩
  rw [mem_block_base]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega
theorem cover_act (i : S100000x64.Idx) :
    ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := index_onto0 ⟨(i 0).val / 5000, by omega⟩
  have ht' : win0_2.index t (0 : Fin 2) = (i 0).val / 5000 := ht
  obtain ⟨e0, e1, e2, e3, e4, e5, e6⟩ := index_facts0 t
  refine ⟨t, flush0_3 t, ?_⟩
  rw [mem_block_act]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- After the region the first output array is X · W, -/
theorem base_array (c : Dev nD) : (dat0 V c).arrAt 2 cfg0.N = proj (V c main_arg0) (V c main_arg3) :=
  (dat0 V c).arrAt_eq_of_cover 2 _ (fun t _ => flushed_base V c t) cover_base
/-- and the second is its tanh. -/
theorem act_array (c : Dev nD) : (dat0 V c).arrAt 3 cfg0.N = act (proj (V c main_arg0) (V c main_arg3)) :=
  (dat0 V c).arrAt_eq_of_cover 3 _ (fun t _ => flushed_act V c t) cover_act

end Cert.KernelIdeal.Val

end
-- ==== Proof.Region1.lean ====
/-
  The second region: the two-layer map and the final tanh, block by block.

  The grid has 20 points; point t works on rows 5000·t … 5000·t + 4999. It loads that block of the neighbour
  sums m and of `base`, and both [64, 64] layer matrices W1, W2 whole; forms m · W1 on the matrix unit, takes the
  maximum with zero, multiplies by W2, adds `base`, takes tanh and writes block t of the result. On the extended
  reals entry (a, b) of that block is

      tanh (base[5000·t + a, b] + Σ_k max (Σ_l m[5000·t + a, l] · W1[l, k]) 0 · W2[k, b]),

  which depends on row 5000·t + a of m and of `base` only: the block is a restriction of one whole-array function
  (`Spec.layer`), and the 20 blocks tile the 100000 rows.
-/
import proofs.«124382_j1666447311066_2_alg».proof.Proof.Gen.KernelIdeal.Frame
import proofs.«124382_j1666447311066_2_alg».proof.Proof.Spec
import proofs.«124382_j1666447311066_2_alg».proof.Proof.LibDense
import Idealize.ShloMosaic.Lib.Pipeline.Value
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Spec

/-! ## The block's arithmetic at an entry -/

local notation "dLayer" => dot_S5000x64_S64x64_S5000x64_1_0_0_1_n_n

theorem layer_lhs0 (i : S5000x64.Idx) (q : (dLayer).contr.Idx) : ((dLayer).lhsIdx i q 0).val = (i 0).val := by
  unfold DotDims.lhsIdx
  rw [dif_neg (show ¬(0 : Fin S5000x64.rank) ∈ (dLayer).lhsBatch by decide),
    dif_pos (show (0 : Fin S5000x64.rank) ∈ (dLayer).lhsNonContracting by decide)]
  rfl
theorem layer_lhs1 (i : S5000x64.Idx) (q : (dLayer).contr.Idx) : ((dLayer).lhsIdx i q 1).val = (q ⟨0, by decide⟩).val :=
  (dLayer).lhsIdx_val_of_single rfl i q
theorem layer_rhs0 (i : S5000x64.Idx) (q : (dLayer).contr.Idx) : ((dLayer).rhsIdx i q 0).val = (q ⟨0, by decide⟩).val :=
  (dLayer).rhsIdx_val_of_single rfl i q
theorem layer_rhs1 (i : S5000x64.Idx) (q : (dLayer).contr.Idx) : ((dLayer).rhsIdx i q 1).val = (i 1).val := by
  unfold DotDims.rhsIdx
  rw [dif_neg (show ¬(1 : Fin S64x64.rank) ∈ (dLayer).rhsBatch by decide),
    dif_pos (show (1 : Fin S64x64.rank) ∈ (dLayer).rhsNonContracting by decide)]
  rfl

/-- A [5000, 64] by [64, 64] product on the matrix unit into a zero accumulator, at (a, b). -/
theorem unit_product_entry (l : FVec Ideal S5000x64 .bf16) (r : FVec Ideal S64x64 .bf16) (a : Fin 5000) (b : Fin 64) :
    matmul (F := Ideal) (dLayer) none l r (constant S5000x64 .f32 0x00000000#32) (ix2 a b)
      = ∑ k : Fin 64, l (ix2 a k) * r (ix2 k b) :=
  Cert.LibDense.matmul_zero_plain (dLayer) none rfl rfl layer_lhs0 layer_lhs1 layer_rhs0 layer_rhs1 l r a b

/-- Entry (a, b) of the block the body stores: tanh of the `base` block's entry plus the two-layer map of row a
    of the neighbour-sum block. -/
theorem block_layer_entry (x0 : Vec Ideal S5000x64 .f32) (x2 x3 : Vec Ideal S64x64 .f32) (x1 : Vec Ideal S5000x64 .f32)
    (a : Fin 5000) (b : Fin 64) :
    k1_pay1 (F := Ideal) x0 x2 x3 x1 (ix2 a b)
      = Ideal.tanh (x1 (ix2 a b) + ∑ k : Fin 64, max (∑ l : Fin 64, x0 (ix2 a l) * x2 (ix2 l k)) 0 * x3 (ix2 k b)) := by
  unfold k1_pay1
  show Ideal.tanh (shapeCast S5000x64 x1 shapeCasts_S5000x64_S5000x64 (ix2 a b) + matmul (F := Ideal) (dLayer) none _ _ _ (ix2 a b)) = _
  rw [unit_product_entry, shapeCast_self]
  refine congrArg (fun z => Ideal.tanh (x1 (ix2 a b) + z)) (Finset.sum_congr rfl fun k _ => ?_)
  refine congrArg (· * x3 (ix2 k b)) ?_
  show max (matmul (F := Ideal) (dLayer) none _ _ _ (ix2 a k)) (Ideal.ofBits .f32 0x00000000#32) = _
  rw [unit_product_entry, shapeCast_self, Ideal.ofBits_zero_f32]
  rfl

/-! ## From the blocks to the array -/

variable (V : (c : Dev nD) → (b : Ref sig .tc) → Buf (Elt Ideal) ((c : Thread nD τ).loc b))

theorem zero_offsets1 : (![0, 0] : Fin 2 → Nat) = fun _ => 0 := funext fun a => by fin_cases a <;> rfl

/-- The five index maps over the grid: the neighbour-sum window, the `base` window and the output window sit at
    the same block row, in block column 0; the two layer matrices always at block (0, 0). -/
theorem index_facts1 : ∀ t : Fin cfg1.N, win1_0.index t (0 : Fin 2) = win1_4.index t (0 : Fin 2)
    ∧ win1_0.index t (1 : Fin 2) = 0 ∧ win1_1.index t (0 : Fin 2) = win1_4.index t (0 : Fin 2)
    ∧ win1_1.index t (1 : Fin 2) = 0 ∧ win1_2.index t (0 : Fin 2) = 0 ∧ win1_2.index t (1 : Fin 2) = 0
    ∧ win1_3.index t (0 : Fin 2) = 0 ∧ win1_3.index t (1 : Fin 2) = 0 ∧ win1_4.index t (1 : Fin 2) = 0 :=
  (by decide +kernel : ∀ t : Fin grid1.N, _)

/-- Every one of the 20 block rows is some point's. -/
theorem index_onto1 : ∀ q : Fin 20, ∃ t : Fin cfg1.N, win1_4.index t (0 : Fin 2) = q.val :=
  (by decide +kernel : ∀ q : Fin 20, ∃ t : Fin grid1.N, win1_4.index t (0 : Fin 2) = q.val)

/-- The neighbour-sum block at (a, l) is the array at the output entry's row, column l. -/
theorem neigh_block_at (c : Dev nD) (t : Fin cfg1.N) (a : Fin 5000) (b : Fin 64) (l : Fin 64) :
    iblk1 V c 0 t (ix2 a l) = V c main_v11 (ix2 ((((cfg1.win 4).blk t).view.emb (ix2 a b)) 0) l) := by
  obtain ⟨e0, e1, e2, e3, e4, e5, e6, e7, e8⟩ := index_facts1 t
  show V c main_v11 (((cfg1.win 0).blk t).view.emb (ix2 a l)) = _
  refine congrArg (V c main_v11) (funext fun d => Fin.ext ?_)
  match d with
  | ⟨0, _⟩ => show win1_0.index t (0 : Fin 2) * 5000 + 1 * a.val = win1_4.index t (0 : Fin 2) * 5000 + 1 * a.val; omega
  | ⟨1, _⟩ => show win1_0.index t (1 : Fin 2) * 64 + 1 * l.val = l.val; omega

/-- The `base` block at (a, b) is the array at the output entry's own index. -/
theorem base_block_at (c : Dev nD) (t : Fin cfg1.N) (a : Fin 5000) (b : Fin 64) :
    iblk1 V c 1 t (ix2 a b) = V c main_v0_0 (((cfg1.win 4).blk t).view.emb (ix2 a b)) := by
  obtain ⟨e0, e1, e2, e3, e4, e5, e6, e7, e8⟩ := index_facts1 t
  show V c main_v0_0 (((cfg1.win 1).blk t).view.emb (ix2 a b)) = _
  refine congrArg (V c main_v0_0) (funext fun d => Fin.ext ?_)
  match d with
  | ⟨0, _⟩ => show win1_1.index t (0 : Fin 2) * 5000 + 1 * a.val = win1_4.index t (0 : Fin 2) * 5000 + 1 * a.val; omega
  | ⟨1, _⟩ => show win1_1.index t (1 : Fin 2) * 64 + 1 * b.val = win1_4.index t (1 : Fin 2) * 64 + 1 * b.val; omega

/-- The first layer matrix's block is the matrix. -/
theorem w1_block_at (c : Dev nD) (t : Fin cfg1.N) (l k : Fin 64) :
    iblk1 V c 2 t (ix2 l k) = V c main_arg4 (ix2 l k) := by
  obtain ⟨e0, e1, e2, e3, e4, e5, e6, e7, e8⟩ := index_facts1 t
  show V c main_arg4 (((cfg1.win 2).blk t).view.emb (ix2 l k)) = _
  refine congrArg (V c main_arg4) (funext fun d => Fin.ext ?_)
  match d with
  | ⟨0, _⟩ => show win1_2.index t (0 : Fin 2) * 64 + 1 * l.val = l.val; omega
  | ⟨1, _⟩ => show win1_2.index t (1 : Fin 2) * 64 + 1 * k.val = k.val; omega

/-- The second layer matrix's block is the matrix, read at the output entry's column. -/
theorem w2_block_at (c : Dev nD) (t : Fin cfg1.N) (a : Fin 5000) (b : Fin 64) (k : Fin 64) :
    iblk1 V c 3 t (ix2 k b) = V c main_arg5 (ix2 k ((((cfg1.win 4).blk t).view.emb (ix2 a b)) 1)) := by
  obtain ⟨e0, e1, e2, e3, e4, e5, e6, e7, e8⟩ := index_facts1 t
  show V c main_arg5 (((cfg1.win 3).blk t).view.emb (ix2 k b)) = _
  refine congrArg (V c main_arg5) (funext fun d => Fin.ext ?_)
  match d with
  | ⟨0, _⟩ => show win1_3.index t (0 : Fin 2) * 64 + 1 * k.val = k.val; omega
  | ⟨1, _⟩ => show win1_3.index t (1 : Fin 2) * 64 + 1 * b.val = win1_4.index t (1 : Fin 2) * 64 + 1 * b.val; omega

/-- A stored entry is the layer at an index `e` of the arrays, once each loaded block's entries are the arrays' at the
    positions `e` names: row e₀ of the neighbour sums, `base` at e, the matrices whole, column e₁ of the second. -/
theorem layer_of_blocks (mm base : S100000x64.Idx → EReal) (A1 A2 : S64x64.Idx → EReal)
    (x0 x1 : Vec Ideal S5000x64 .f32) (x2 x3 : Vec Ideal S64x64 .f32) (e : S100000x64.Idx) (a : Fin 5000) (b : Fin 64)
    (h0 : ∀ l : Fin 64, x0 (ix2 a l) = mm (ix2 (e 0) l)) (h1 : x1 (ix2 a b) = base e)
    (h2 : ∀ l k : Fin 64, x2 (ix2 l k) = A1 (ix2 l k)) (h3 : ∀ k : Fin 64, x3 (ix2 k b) = A2 (ix2 k (e 1))) :
    k1_pay1 (F := Ideal) x0 x2 x3 x1 (ix2 a b) = layer mm base A1 A2 e := by
  rw [block_layer_entry]
  unfold layer
  rw [h1]
  simp only [h0, h2, h3]

/-- What point t writes back is block t of the layer of the arrays as the region finds them. -/
theorem flushed_layer (c : Dev nD) (t : Fin cfg1.N) :
    (dat1 V c).flushed 4 t = ((cfg1.win 4).blk t).view.read (Elt Ideal)
      (layer (V c main_v11) (V c main_v0_0) (V c main_arg4) (V c main_arg5)) := by
  show (cfg1.win 4).cut (grid1.coords t) ((dat1 V c).after 4 t) = _
  rw [after1_4]
  unfold out1_4
  rw [View.canon_unit_zero zero_offsets1]
  simp only [View.ld_unit_zero (S := S5000x64) zero_offsets1, View.ld_unit_zero (S := S64x64) zero_offsets1]
  funext j
  obtain ⟨a, b, rfl⟩ : ∃ (a : Fin 5000) (b : Fin 64), j = ix2 a b := ⟨j 0, j 1, eq_ix2 j⟩
  exact layer_of_blocks (V c main_v11) (V c main_v0_0) (V c main_arg4) (V c main_arg5)
    (iblk1 V c 0 t) (iblk1 V c 1 t) (iblk1 V c 2 t) (iblk1 V c 3 t) (((cfg1.win 4).blk t).view.emb (ix2 a b)) a b
    (fun l => neigh_block_at V c t a b l) (base_block_at V c t a b) (fun l k => w1_block_at V c t l k)
    (fun k => w2_block_at V c t a b k)

/-- An index of the result array is in point t's block iff each coordinate is in the block's range on its axis. -/
theorem mem_block_layer (t : Fin cfg1.N) (i : S100000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v12).slice (win1_4.rect t)).set ↔ _
  rw [View.set_slice_whole, Rect.mem_set_unit]
  exact Iff.rfl

/-- Row r of the result lies in the block of the point at block row r / 5000: the 20 blocks tile the rows. -/
theorem cover_layer (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  obtain ⟨t, ht⟩ := index_onto1 ⟨(i 0).val / 5000, by omega⟩
  have ht' : win1_4.index t (0 : Fin 2) = (i 0).val / 5000 := ht
  obtain ⟨e0, e1, e2, e3, e4, e5, e6, e7, e8⟩ := index_facts1 t
  refine ⟨t, flush1_4 t, ?_⟩
  rw [mem_block_layer]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- After the region the result array is the layer of the neighbour sums, `base` and the two matrices as the region
    found them. -/
theorem layer_array (c : Dev nD) :
    (dat1 V c).arrAt 4 cfg1.N = layer (V c main_v11) (V c main_v0_0) (V c main_arg4) (V c main_arg5) :=
  (dat1 V c).arrAt_eq_of_cover 4 _ (fun t _ => flushed_layer V c t) cover_layer

end Cert.KernelIdeal.Val

end
-- ==== Proof.KernelValue.lean ====
/-
  What the two-region program leaves in its result buffer, as one function of the arguments.

  Between the regions the host line computes the neighbour sum: the source indices are wrapped (a negative index
  has the row count added) and made a column of start indices; the rows of the first region's tanh output are
  gathered at them (the gather reads that output in its narrow float format and widens it: the identity on the
  extended reals); a zero array is scatter-added with those rows at the column of destination indices. It writes
  none of the first region's outputs and no argument. So the second region finds the neighbour sum of
  tanh (X · W), the array X · W, and the two layer matrices as launched, and leaves the layer of them in the result.
-/
import proofs.«124382_j1666447311066_2_alg».proof.Proof.KernelRun
import proofs.«124382_j1666447311066_2_alg».proof.Proof.Region0
import proofs.«124382_j1666447311066_2_alg».proof.Proof.Region1
import Idealize.ShloMosaic.Lib.StableHlo.Run

set_option maxRecDepth 16384

noncomputable section

namespace Cert.KernelIdeal.Val

open Idealize.ShloMosaic Idealize.ShloMosaic.TcCoe Idealize.ShloMosaic.ValueIdx Idealize.SL.Sem
open Idealize.ShloMosaic.StableHlo
open Cert.KernelIdeal Cert.KernelIdeal.Gen Cert.Spec

/-- The column of gather start indices: each source index, with the row count added when it is negative. -/
def srcColumn (src : IVec S3200000 32) : IVec S3200000x1 32 :=
  broadcastInDim S3200000x1 ![0] bcast_S3200000_S3200000x1_0
    (select (cmpi .slt src (broadcastInDim S3200000 ![] bcast_S_S3200000 (constantI S_ 32 0#32)))
      (addi src (broadcastInDim S3200000 ![] bcast_S_S3200000 (constantI S_ 32 100000#32))) src)

/-- The column of scatter indices: the destination indices as they are. -/
def dstColumn (dst : IVec S3200000 32) : IVec S3200000x1 32 :=
  broadcastInDim S3200000x1 ![0] bcast_S3200000_S3200000x1_0 dst

/-- The zero word broadcast to an array is the zero array. -/
theorem zero_array :
    (broadcastInDim S100000x64 ![] bcast_S_S100000x64 (constant (F := Ideal) S_ .f32 0x00000000#32) : FVec Ideal S100000x64 .f32)
      = fun _ => (0 : EReal) := by
  funext i
  rw [broadcastInDim_apply _ bcast_S_S100000x64 _ i (fun a => a.elim0) (fun a => a.elim0)]
  exact Ideal.ofBits_zero_f32

/-- The host line's last result is the neighbour sum of the first region's second output, over any contents. -/
theorem host_line_neigh (W : Valuation τ sig (Elt Ideal)) :
    StableHlo.after (hostOps1 (F := Ideal)) W (Proc.devRef .tc main_v11)
      = neigh gather_S100000x64_S3200000x1_S3200000x64_1_0_n_n_0_1_164 scatter_S100000x64_S3200000x1_S3200000x64_1_0_0_1
          (W (Proc.devRef .tc main_v0_1)) (srcColumn (W (Proc.devRef .tc main_arg1))) (dstColumn (W (Proc.devRef .tc main_arg2))) := by
  after_results
  rw [zero_array]
  rfl

/-- The host line writes neither `base` nor a layer matrix. -/
theorem host_line_keeps_base (W : Valuation τ sig (Elt Ideal)) :
    StableHlo.after (hostOps1 (F := Ideal)) W (Proc.devRef .tc main_v0_0) = W (Proc.devRef .tc main_v0_0) := by
  after_results
theorem host_line_keeps_w1 (W : Valuation τ sig (Elt Ideal)) :
    StableHlo.after (hostOps1 (F := Ideal)) W (Proc.devRef .tc main_arg4) = W (Proc.devRef .tc main_arg4) := by
  after_results
theorem host_line_keeps_w2 (W : Valuation τ sig (Elt Ideal)) :
    StableHlo.after (hostOps1 (F := Ideal)) W (Proc.devRef .tc main_arg5) = W (Proc.devRef .tc main_arg5) := by
  after_results

variable (m : (ℓ : Loc nD τ sig) → Buf (Elt Ideal) ℓ) (ρ : Dev nD → PrngReg)

/-- After the first region: its outputs, and the arguments it does not touch. -/
theorem after_first_base (c : Dev nD) :
    W1 m ρ c (Proc.devRef .tc main_v0_0)
      = proj (m ((c : Thread nD τ).loc main_arg0)) (m ((c : Thread nD τ).loc main_arg3)) :=
  (W1_arr m ρ c 2).trans (base_array (V0 m ρ) c)
theorem after_first_act (c : Dev nD) :
    W1 m ρ c (Proc.devRef .tc main_v0_1)
      = act (proj (m ((c : Thread nD τ).loc main_arg0)) (m ((c : Thread nD τ).loc main_arg3))) :=
  (W1_arr m ρ c 3).trans (act_array (V0 m ρ) c)
theorem after_first_src (c : Dev nD) : W1 m ρ c (Proc.devRef .tc main_arg1) = m ((c : Thread nD τ).loc main_arg1) :=
  W1_of_ne m ρ c main_arg1 (by decide)
theorem after_first_dst (c : Dev nD) : W1 m ρ c (Proc.devRef .tc main_arg2) = m ((c : Thread nD τ).loc main_arg2) :=
  W1_of_ne m ρ c main_arg2 (by decide)
theorem after_first_w1 (c : Dev nD) : W1 m ρ c (Proc.devRef .tc main_arg4) = m ((c : Thread nD τ).loc main_arg4) :=
  W1_of_ne m ρ c main_arg4 (by decide)
theorem after_first_w2 (c : Dev nD) : W1 m ρ c (Proc.devRef .tc main_arg5) = m ((c : Thread nD τ).loc main_arg5) :=
  W1_of_ne m ρ c main_arg5 (by decide)

/-- THE RESULT: the layer of the neighbour sum of tanh (X · W), of X · W and of the two layer matrices. -/
theorem result_value (c : Dev nD) :
    W3 m ρ c (Proc.devRef .tc main_v12)
      = layer
          (neigh gather_S100000x64_S3200000x1_S3200000x64_1_0_n_n_0_1_164 scatter_S100000x64_S3200000x1_S3200000x64_1_0_0_1
            (act (proj (m ((c : Thread nD τ).loc main_arg0)) (m ((c : Thread nD τ).loc main_arg3))))
            (srcColumn (m ((c : Thread nD τ).loc main_arg1))) (dstColumn (m ((c : Thread nD τ).loc main_arg2))))
          (proj (m ((c : Thread nD τ).loc main_arg0)) (m ((c : Thread nD τ).loc main_arg3)))
          (m ((c : Thread nD τ).loc main_arg4)) (m ((c : Thread nD τ).loc main_arg5)) := by
  rw [last_at_result, layer_array (V2 m ρ) c]
  have h11 : V2 m ρ c main_v11 = _ := host_line_neigh (W1 m ρ c)
  have hb : V2 m ρ c main_v0_0 = _ := host_line_keeps_base (W1 m ρ c)
  have h4 : V2 m ρ c main_arg4 = _ := host_line_keeps_w1 (W1 m ρ c)
  have h5 : V2 m ρ c main_arg5 = _ := host_line_keeps_w2 (W1 m ρ c)
  rw [h11, hb, h4, h5, after_first_base, after_first_act, after_first_src, after_first_dst, after_first_w1, after_first_w2]

end Cert.KernelIdeal.Val

end
-- ==== Proof.RefValue.lean ====
/-
  The reference program's result as the same function of the arguments.

  The reference computes `base` = X · W by one whole product and runs two rounds of message passing from the zero
  array: in each round the rows of the current state are gathered at the wrapped source indices and scatter-added
  at the destination indices onto a zero array, and the new state is tanh (base + relu (m · W1) · W2).
  A host product with one contracted axis is, entry by entry, the sum over that axis; so each round is `Spec.layer`
  of that round's neighbour sum. The first round starts from zero: its neighbour sum is zero and its result is
  tanh base (`Spec.layer_zero`). The second round is therefore the layer of the neighbour sum of tanh (X · W).
-/
import proofs.«124382_j1666447311066_2_alg».proof.Proof.Gen.ReferenceIdeal.Read
import proofs.«124382_j1666447311066_2_alg».proof.Proof.Spec
import proofs.«124382_j1666447311066_2_alg».proof.Proof.LibDense
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read Cert.Spec

local notation "dBase" => dot_S100000x128_S128x64_S100000x64_1_0_0_1_n_n
local notation "dRound" => dot_S100000x64_S64x64_S100000x64_1_0_0_1_n_n
local notation "gRows" => gather_S100000x64_S3200000x1_S3200000x64_1_0_n_n_0_1_164
local notation "sRows" => scatter_S100000x64_S3200000x1_S3200000x64_1_0_0_1
abbrev Feat : Type := FVec Ideal S100000x128 .f32
abbrev Rows : Type := FVec Ideal S100000x64 .f32
abbrev Proj : Type := FVec Ideal S128x64 .f32
abbrev Sq : Type := FVec Ideal S64x64 .f32
abbrev Edges : Type := IVec S3200000 32

/-- The column of gather start indices: each source index, with the row count added when it is negative. -/
def srcColumn (src : IVec S3200000 32) : IVec S3200000x1 32 :=
  broadcastInDim S3200000x1 ![0] bcast_S3200000_S3200000x1_0
    (select (cmpi .slt src (broadcastInDim S3200000 ![] bcast_S_S3200000 (constantI S_ 32 0#32)))
      (addi src (broadcastInDim S3200000 ![] bcast_S_S3200000 (constantI S_ 32 100000#32))) src)

/-- The column of scatter indices: the destination indices as they are. -/
def dstColumn (dst : IVec S3200000 32) : IVec S3200000x1 32 :=
  broadcastInDim S3200000x1 ![0] bcast_S3200000_S3200000x1_0 dst

/-- The zero word broadcast to an array is the zero array. -/
theorem zero_array :
    (broadcastInDim S100000x64 ![] bcast_S_S100000x64 (constant (F := Ideal) S_ .f32 0x00000000#32) : Rows)
      = fun _ => (0 : EReal) := by
  funext i
  rw [broadcastInDim_apply _ bcast_S_S100000x64 _ i (fun a => a.elim0) (fun a => a.elim0)]
  exact Ideal.ofBits_zero_f32

/-- The whole product X · W, entry by entry. -/
theorem base_eq (X : Feat) (W : Proj) :
    Host.dotGeneral (F := Ideal) (dBase) none X W = proj X W := by
  funext i
  simp only [Host.dotGeneral]
  rw [Ideal.dotGeneral_apply]
  exact Cert.LibDense.sum_contr_plain (dBase) rfl rfl i (lhs_main_v0_0 i) (lhs_main_v0_1 i) (rhs_main_v0_0 i) (rhs_main_v0_1 i) X W

/-- A [100000, 64] by [64, 64] host product, entry by entry. -/
theorem round_product_entry (l : Rows) (r : Sq) (i : S100000x64.Idx) :
    Host.dotGeneral (F := Ideal) (dRound) none l r i = ∑ k : Fin 64, l (ix2 (i 0) k) * r (ix2 k (i 1)) := by
  simp only [Host.dotGeneral]
  rw [Ideal.dotGeneral_apply]
  exact Cert.LibDense.sum_contr_plain (dRound) rfl rfl i (lhs_main_v12_0 i) (lhs_main_v12_1 i) (rhs_main_v12_0 i) (rhs_main_v12_1 i) l r

/-- One round's dense part: tanh (base + relu (m · W1) · W2) is the layer of m. -/
theorem round_eq (mm base : Rows) (W1 W2 : Sq) :
    Host.tanh (F := Ideal) (addf base (Host.dotGeneral (dRound) none
      (maximumf (Host.dotGeneral (dRound) none mm W1)
        (broadcastInDim S100000x64 ![] bcast_S_S100000x64 (constant (F := Ideal) S_ .f32 0x00000000#32))) W2))
      = layer mm base W1 W2 := by
  rw [zero_array]
  funext i
  show Ideal.tanh (base i + Host.dotGeneral (F := Ideal) (dRound) none _ W2 i) = _
  rw [round_product_entry]
  unfold layer
  refine congrArg (fun z : EReal => Ideal.tanh (base i + z)) (Finset.sum_congr rfl fun k _ => ?_)
  refine congrArg (fun z : EReal => z * W2 (ix2 k (i 1))) ?_
  show max (Host.dotGeneral (F := Ideal) (dRound) none mm W1 (ix2 (i 0) k)) 0 = _
  rw [round_product_entry]

/-- One round's sparse part: the gather and the scatter-add onto zero are the neighbour sum. -/
theorem neigh_eq (u : Rows) (src dst : Edges) :
    Host.scatterAdd (F := Ideal) (sRows)
        (broadcastInDim S100000x64 ![] bcast_S_S100000x64 (constant (F := Ideal) S_ .f32 0x00000000#32))
        (broadcastInDim S3200000x1 ![0] bcast_S3200000_S3200000x1_0 dst)
        (Host.gather (gRows) u
          (broadcastInDim S3200000x1 ![0] bcast_S3200000_S3200000x1_0
            (select (cmpi .slt src (broadcastInDim S3200000 ![] bcast_S_S3200000 (constantI S_ 32 0#32)))
              (addi src (broadcastInDim S3200000 ![] bcast_S_S3200000 (constantI S_ 32 100000#32))) src)))
      = neigh (gRows) (sRows) u (srcColumn src) (dstColumn dst) := by
  rw [zero_array]
  rfl

/-- THE REFERENCE'S RESULT: two rounds from zero are the layer of the neighbour sum of tanh (X · W). -/
theorem result_eq (X : Feat) (src dst : Edges) (W : Proj) (W1 W2 : Sq) :
    val_main_v31 (F := Ideal) X src dst W W1 W2
      = layer (neigh (gRows) (sRows) (act (proj X W)) (srcColumn src) (dstColumn dst)) (proj X W) W1 W2 := by
  rw [← val_main_v31_eq]
  -- the second round: the layer of its neighbour sum and of `base`
  refine (round_eq _ _ W1 W2).trans ?_
  refine congrArg₂ (fun a b => layer a b W1 W2) ((neigh_eq _ src dst).trans ?_) (base_eq X W)
  refine congrArg (fun u => neigh (gRows) (sRows) u (srcColumn src) (dstColumn dst)) ?_
  -- the first round: its neighbour sum is that of the zero array
  refine (round_eq _ _ W1 W2).trans ?_
  refine (congrArg₂ (fun a b => layer a b W1 W2) ((neigh_eq _ src dst).trans ?_) (base_eq X W)).trans
    (layer_zero (proj X W) W1 W2)
  rw [zero_array]
  exact neigh_zero (gRows) (sRows) (srcColumn src) (dstColumn dst)

end Cert.ReferenceIdeal.RefValue

end
-- ==== Proof.lean ====
/-
  The certificate of the message-passing kernel against its reference.

  Both programs compute, over N = 100000 nodes with 128 features and E = 3200000 edges (src, dst),

      base = X · W,    u¹ = tanh base,    m = Σ over edges into a node of u¹ at the edge's source,
      result = tanh (base + relu (m · W1) · W2).

  The reference runs two rounds of message passing from the zero state; its first round gathers and sums zeros,
  so that round's two-layer map contributes nothing and its result is tanh base (a zero factor annihilates every
  extended real, so no finiteness is needed). The kernel computes base and tanh base in a first tiled region,
  the neighbour sum by the same host gather and scatter-add as the reference's second round, and the last
  two-layer map and tanh in a second tiled region, 5000 rows per grid point. Over the extended reals a change of
  float format is the identity and a product on the matrix unit into a zero accumulator is the host's product:
  both results are `Spec.layer (Spec.neigh (Spec.act (Spec.proj X W))) (Spec.proj X W) W1 W2`.

  The frames of the two kernel programs are the generated ones; the reference's frame is its generated run with the
  result dropped; the idealization rewrote nothing, so `preserves` is trivial.
-/
import proofs.«124382_j1666447311066_2_alg».proof.Defs
import proofs.«124382_j1666447311066_2_alg».proof.Proof.Gen.Kernel
import proofs.«124382_j1666447311066_2_alg».proof.Proof.Gen.Kernel.Skeleton
import proofs.«124382_j1666447311066_2_alg».proof.Proof.Gen.Kernel.Launch
import proofs.«124382_j1666447311066_2_alg».proof.Proof.Gen.Kernel.Points
import proofs.«124382_j1666447311066_2_alg».proof.Proof.Gen.Kernel.Frame
import proofs.«124382_j1666447311066_2_alg».proof.Proof.Gen.KernelIdeal
import proofs.«124382_j1666447311066_2_alg».proof.Proof.Gen.KernelIdeal.Skeleton
import proofs.«124382_j1666447311066_2_alg».proof.Proof.Gen.KernelIdeal.Launch
import proofs.«124382_j1666447311066_2_alg».proof.Proof.Gen.KernelIdeal.Points
import proofs.«124382_j1666447311066_2_alg».proof.Proof.Gen.KernelIdeal.Frame
import proofs.«124382_j1666447311066_2_alg».proof.Proof.Gen.ReferenceIdeal
import proofs.«124382_j1666447311066_2_alg».proof.Proof.Gen.ReferenceIdeal.Run
import proofs.«124382_j1666447311066_2_alg».proof.Proof.Gen.ReferenceIdeal.Read
import proofs.«124382_j1666447311066_2_alg».proof.Proof.Gen.Pre_finite_inputs
import proofs.«124382_j1666447311066_2_alg».proof.Proof.KernelValue
import proofs.«124382_j1666447311066_2_alg».proof.Proof.RefValue
import Idealize.ShloMosaic.Adequacy
import Idealize.ShloMosaic.Init

noncomputable section

namespace Cert.Proof

open Idealize.ShloMosaic Idealize.ShloMosaic.TcCoe Idealize.SL.Sem Cert.Spec

/-- The neighbour sum is one function however the two programs spell its dimension records and index columns:
    the records have the same fields and the columns the same operations. -/
theorem neigh_same (u : Cert.KernelIdeal.S100000x64.Idx → EReal) (s d : IVec Cert.KernelIdeal.S3200000 32) :
    neigh Cert.ReferenceIdeal.gather_S100000x64_S3200000x1_S3200000x64_1_0_n_n_0_1_164
        Cert.ReferenceIdeal.scatter_S100000x64_S3200000x1_S3200000x64_1_0_0_1 u
        (Cert.ReferenceIdeal.RefValue.srcColumn s) (Cert.ReferenceIdeal.RefValue.dstColumn d)
      = neigh Cert.KernelIdeal.gather_S100000x64_S3200000x1_S3200000x64_1_0_n_n_0_1_164
        Cert.KernelIdeal.scatter_S100000x64_S3200000x1_S3200000x64_1_0_0_1 u
        (Cert.KernelIdeal.Val.srcColumn s) (Cert.KernelIdeal.Val.dstColumn d) := rfl

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result buffer at the layer of the neighbour sum of tanh (X · W): the kernel by its
    run read at the result (`Val.run_result`, `Val.result_value`), the reference by its generated run and
    `RefValue.result_eq`, from arguments that agree. -/
theorem algebraic : Cert.algebraic_KernelIdeal_ReferenceIdeal := by
  intro m ρ m' ρ' _ hagree
  refine ⟨fun c => Cert.KernelIdeal.Gen.W3 m ρ c (Proc.devRef .tc Cert.KernelIdeal.main_v12),
    Cert.KernelIdeal.Val.run_result m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W3 m ρ c (Proc.devRef .tc Cert.KernelIdeal.main_v12)
  rw [Cert.KernelIdeal.Val.result_value m ρ c, (hagree c).1, (hagree c).2.1, (hagree c).2.2.1, (hagree c).2.2.2.1,
    (hagree c).2.2.2.2.1, (hagree c).2.2.2.2.2]
  exact (Cert.ReferenceIdeal.Read.val_main_v31_eq _ _ _ _ _ _).trans
    ((Cert.ReferenceIdeal.RefValue.result_eq _ _ _ _ _ _).trans
      (congrArg (fun z => layer z _ _ _) (neigh_same _ _ _)))

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
